-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x10000x128 .f32) (main_arg1 : FVec F S1x10000x10000 .f32) (main_arg2 : FVec F S128x128 .f32) (main_arg3 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10000x128 : Shape := ⟨2, ![10000, 128]⟩
abbrev S10000x10000 : Shape := ⟨2, ![10000, 10000]⟩
abbrev S1x128 : Shape := ⟨2, ![1, 128]⟩
abbrev S400x10000 : Shape := ⟨2, ![400, 10000]⟩
abbrev S400x128 : Shape := ⟨2, ![400, 128]⟩

abbrev nBuf : Space → Nat
  | .hbm => 10
  | .vmem => 8
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x10000, .f32⟩
  | .hbm, ⟨6, _⟩ => ⟨S128x128, .f32⟩
  | .hbm, ⟨7, _⟩ => ⟨S1x128, .f32⟩
  | .hbm, ⟨8, _⟩ => ⟨S10000x128, .f32⟩
  | .hbm, ⟨9, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  transposes_S128x128_S128x128_1_0 : S128x128.Transposes [1, 0] S128x128
  shapeCasts_S128_S1x128 : S128.ShapeCasts S1x128
  shapeCasts_S10000x128_S1x10000x128 : S10000x128.ShapeCasts S1x10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Spec.lean ====
/-
  One graph-convolution layer with a dense adjacency, as ONE function of the argument arrays, index by index:

    out[b, n, o] = (∑ k, adj[b, n, k] · (∑ d, seq[b, k, d] · W[o, d])) + bias[o]

  over the extended reals: each node's feature row is projected by the transposed weight matrix, the projected rows
  are aggregated over all nodes with the adjacency row as weights, and the bias is added. Both programs compute
  exactly this nested sum, in this order, so no law of the extended reals beyond reading each operation at an index
  is needed, and finiteness of the inputs is never used.
-/
import Idealize.ShloMosaic.PureOps.Ideal
import Idealize.ShloMosaic.Lib.ValueIdx

noncomputable section

namespace Cert.GcnLayer

open Idealize.ShloMosaic Idealize.ShloMosaic.ValueIdx

/-- The projected feature of node `k`, channel `o`: the node's row against row `o` of the weight matrix. -/
def feat (seq : (⟨3, ![1, 10000, 128]⟩ : Shape).Idx → EReal) (W : (⟨2, ![128, 128]⟩ : Shape).Idx → EReal)
    (b : Fin 1) (k : Fin 10000) (o : Fin 128) : EReal :=
  ∑ d : Fin 128, seq (ix3 b k d) * W (ix2 o d)

/-- The layer's output: the adjacency-weighted sum of the projected features, plus the bias. -/
def layer (seq : (⟨3, ![1, 10000, 128]⟩ : Shape).Idx → EReal) (adj : (⟨3, ![1, 10000, 10000]⟩ : Shape).Idx → EReal)
    (W : (⟨2, ![128, 128]⟩ : Shape).Idx → EReal) (bias : (⟨1, ![128]⟩ : Shape).Idx → EReal) :
    (⟨3, ![1, 10000, 128]⟩ : Shape).Idx → EReal :=
  fun i => (∑ k : Fin 10000, adj (ix3 (i 0) (i 1) k) * feat seq W (i 0) k (i 2)) + bias (ix1 (i 2))

/-- The same layer over the two-dimensional arrays the kernel works on — the feature rows `F`, the adjacency matrix
    `A`, the weight matrix already transposed `Wt`, the bias as one row `B`:
    out[n, o] = (∑ k, A[n, k] · (∑ d, F[k, d] · Wt[d, o])) + B[0, o]. -/
def layerRows (Fm : (⟨2, ![10000, 128]⟩ : Shape).Idx → EReal) (A : (⟨2, ![10000, 10000]⟩ : Shape).Idx → EReal)
    (Wt : (⟨2, ![128, 128]⟩ : Shape).Idx → EReal) (B : (⟨2, ![1, 128]⟩ : Shape).Idx → EReal) :
    (⟨2, ![10000, 128]⟩ : Shape).Idx → EReal :=
  fun i => (∑ k : Fin 10000, A (ix2 (i 0) k) * ∑ d : Fin 128, Fm (ix2 k d) * Wt (ix2 d (i 1))) + B (ix2 (0 : Fin 1) (i 1))

end Cert.GcnLayer

end
-- ==== Proof.RefRead.lean ====
/-
  The reference program computes the layer function: its two host contractions and its bias broadcast, read at an
  index one operation at a time, are the nested sum of `Cert.GcnLayer.layer` term for term.
-/
import proofs.«169005_g81458349736213_cont_sun_m_226_36_alg».proof.Proof.Gen.ReferenceIdeal.Read
import proofs.«169005_g81458349736213_cont_sun_m_226_36_alg».proof.Proof.Spec

noncomputable section

namespace Cert.ReferenceIdeal.IsLayer

open Cert.ReferenceIdeal Cert.ReferenceIdeal.Read Idealize.ShloMosaic Idealize.ShloMosaic.ValueIdx

/-- The reference's result, as the run states it, is the layer function of its four arguments. -/
theorem result_eq (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal)) :
    val_main_v4 (F := Ideal) x0 x1 x2 x3 = Cert.GcnLayer.layer x0 x1 x2 x3 := by
  funext i
  have e1 : ∀ k : Fin 10000, lidx_main_v1 i k = ix3 (i 0) (i 1) k := fun k => funext fun a => Fin.ext (by
    match a with | ⟨0, _⟩ => rfl | ⟨1, _⟩ => rfl | ⟨2, _⟩ => rfl)
  have e2 : ∀ (k : Fin 10000) (d : Fin 128), lidx_main_v0 (ridx_main_v1 i k) d = ix3 (i 0) k d := fun k d => funext fun a => Fin.ext (by
    match a with | ⟨0, _⟩ => rfl | ⟨1, _⟩ => rfl | ⟨2, _⟩ => rfl)
  have e3 : ∀ (k : Fin 10000) (d : Fin 128), ridx_main_v0 (ridx_main_v1 i k) d = ix2 (i 2) d := fun k d => funext fun a => Fin.ext (by
    match a with | ⟨0, _⟩ => rfl | ⟨1, _⟩ => rfl)
  have e4 : idx_main_v2 (idx_main_v3 i) = ix1 (i 2) := funext fun a => Fin.ext (by
    match a with | ⟨0, _⟩ => rfl)
  rw [val_main_v4_apply, val_main_v1_apply, val_main_v3_apply, val_main_v2_apply, e4]
  simp only [val_main_v0_apply, e1, e2, e3]
  rfl

end Cert.ReferenceIdeal.IsLayer

end
-- ==== Proof.Pieces.lean ====
/-
  What one run of the kernel body leaves behind, as values of the blocks it was given.

  At the first grid point the body overwrites the whole scratch with the projected features of the feature and
  weight blocks, then reads the scratch back and stores the aggregated block; at every later point it stores
  nothing into the scratch and aggregates against what the scratch already held. Each store covers its whole
  buffer from offset zero, so what a buffer holds afterwards is the stored value itself, and a load of a whole
  buffer is its contents.
-/
import proofs.«169005_g81458349736213_cont_sun_m_226_36_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of every access of the body: the origin. -/
theorem hz : (![0, 0] : Fin 2 → Nat) = fun _ => 0 := funext fun a => by fin_cases a <;> rfl

/-- First point: the scratch ends at the projected features of the feature block and the weight block. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S1x128 .f32) (x3 : Vec F S400x10000 .f32) :
    sout0_A_0 c i arg1 harg1 arg2 harg2 arg3 harg3 arg4 harg4 arg5 harg5 arg6 harg6 hc0 x0 x1 x2 x3 = k0_pay1 x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words

  rw [View.canon_unit_zero hz]
  simp only [View.readAt_eq_ld, harg1.read_unread, harg2.read_unread, View.ld_unit_zero (S := S10000x128) hz,
    View.ld_unit_zero (S := S128x128) hz]

/-- First point: the output block ends at the aggregation of the adjacency block against the features just
    projected (the scratch is read back after its store), plus the bias. -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S1x128 .f32) (x3 : Vec F S400x10000 .f32) :
    out0_A_4 c i arg1 harg1 arg2 harg2 arg3 harg3 arg4 harg4 arg5 harg5 arg6 harg6 hc0 x0 x1 x2 x3 = k0_pay2 x3 (k0_pay1 x0 x1) x2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words

  rw [View.canon_unit_zero hz, View.readCov_unit_zero (S := S10000x128) _ hz]
  simp only [View.readAt_eq_ld, harg1.read_unread, harg2.read_unread, harg3.read_unread, harg4.read_unread,
    View.ld_unit_zero (S := S10000x128) hz, View.ld_unit_zero (S := S128x128) hz, View.ld_unit_zero (S := S1x128) hz,
    View.ld_unit_zero (S := S400x10000) hz]

/-- A later point: the output block ends at the aggregation of the adjacency block against what the scratch held. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S1x128 .f32) (x3 : Vec F S400x10000 .f32) (xs0 : Vec F S10000x128 .bf16) :
    out0_B_4 c i arg1 harg1 arg2 harg2 arg3 harg3 arg4 harg4 arg5 harg5 arg6 harg6 hc0 x0 x1 x2 x3 xs0 = k0_pay2 x3 xs0 x2 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero hz]
  simp only [View.readAt_eq_ld, harg3.read_unread, harg4.read_unread, harg6.read_unread,
    View.ld_unit_zero (S := S10000x128) hz, View.ld_unit_zero (S := S1x128) hz, View.ld_unit_zero (S := S400x10000) hz]

end Cert.KernelIdeal.Pieces

end
-- ==== Proof.Points.lean ====
/-
  What the kernel's buffers hold after each grid point.

  The feature, weight and bias windows never move: their block at every point is their whole array. The
  adjacency window's block at point t is rows 400·t … 400·t + 399 of the adjacency matrix. The scratch is written
  at the first point only and never again, so by induction on the point it holds, after every point, the projected
  features of the whole feature array; hence at EVERY point, first or later, the output block is the aggregation of
  that point's adjacency rows against those projected features, plus the bias.
-/
import proofs.«169005_g81458349736213_cont_sun_m_226_36_alg».proof.Proof.Pieces
import Idealize.ShloMosaic.Lib.ValueIdx

noncomputable section

namespace Cert.KernelIdeal.Points

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices of the five windows at every point: the first three stay at the origin, the adjacency and the
    output windows walk down the rows with the point. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block is the whole feature array, at every point. -/
theorem feature_block (c : Dev nD) (t : Fin cfg0.N) :
    (iblk m c 0 t : Vec F S10000x128 .f32) = V m c main_call0_v0 := by
  obtain ⟨e0, e1, -⟩ := block_indices t
  funext j
  unfold iblk
  rw [View.read_apply]
  show V m c main_call0_v0 _ = V m c main_call0_v0 j
  congr 1
  funext a
  apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weight window's block is the whole (transposed) weight matrix, at every point. -/
theorem weight_block (c : Dev nD) (t : Fin cfg0.N) :
    (iblk m c 1 t : Vec F S128x128 .f32) = V m c main_call0_v2 := by
  obtain ⟨-, -, e0, e1, -⟩ := block_indices t
  funext j
  unfold iblk
  rw [View.read_apply]
  show V m c main_call0_v2 _ = V m c main_call0_v2 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias window's block is the whole bias row, at every point. -/
theorem bias_block (c : Dev nD) (t : Fin cfg0.N) :
    (iblk m c 2 t : Vec F S1x128 .f32) = V m c main_call0_v3 := by
  obtain ⟨-, -, -, -, e0, e1, -⟩ := block_indices t
  funext j
  unfold iblk
  rw [View.read_apply]
  show V m c main_call0_v3 _ = V m c main_call0_v3 j
  congr 1
  funext a
  apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The adjacency window's block at point t, read at (p, k), is the adjacency matrix at row 400·t + p, column k. -/
theorem adjacency_block_apply (c : Dev nD) (t : Fin cfg0.N) (p : Fin 400) (k : Fin 10000) (r : Fin 10000)
    (hr : r.val = t.val * 400 + p.val) :
    (iblk m c 3 t : Vec F S400x10000 .f32) (ix2 p k) = V m c main_call0_v1 (ix2 r k) := by
  obtain ⟨-, -, -, -, -, -, e0, e1, -⟩ := block_indices t
  unfold iblk
  rw [View.read_apply]
  show V m c main_call0_v1 _ = V m c main_call0_v1 _
  congr 1
  funext a
  apply Fin.ext
  match a with
  | ⟨0, _⟩ => show win0_3.index t (0 : Fin 2) * 400 + 1 * p.val = r.val; omega
  | ⟨1, _⟩ => show win0_3.index t (1 : Fin 2) * 10000 + 1 * k.val = k.val; omega

/-- The projected features of the whole feature array: what the scratch holds from the first point on. -/
def projected (c : Dev nD) : Vec F S10000x128 .bf16 := k0_pay1 (V m c main_call0_v0) (V m c main_call0_v2)

/-- The projection of a point's feature and weight blocks is the projection of the whole arrays. -/
theorem projected_of_blocks (c : Dev nD) (t : Fin cfg0.N) :
    k0_pay1 (iblk m c 0 t : Vec F S10000x128 .f32) (iblk m c 1 t : Vec F S128x128 .f32) = projected m c :=
  congrArg₂ k0_pay1 (feature_block m c t) (weight_block m c t)

/-- After every point the scratch holds the projected features: written at the first point, kept afterwards. -/
theorem scratch_eq (c : Dev nD) : ∀ (n : ℕ) (h : n < cfg0.N), (outsAt0 m c n h).2 = projected m c
  | 0, h => by
    let t : Fin cfg0.N := ⟨0, h⟩
    have h0 : t.val % 25 = 0 := rfl
    rw [outsAt0_A m c t h0]
    dsimp only
    exact (Pieces.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans (projected_of_blocks m c t)
  | n + 1, h => by
    have hN : cfg0.N = 25 := N_0
    let t : Fin cfg0.N := ⟨n + 1, h⟩
    have hB : ¬t.val % 25 = 0 := by dsimp only [t]; omega
    rw [outsAt0_B m c t hB]
    dsimp only
    unfold sout0_B_0
    exact scratch_eq c n _

/-- At every point the output block ends at the aggregation of the point's adjacency rows against the projected
    features, plus the bias. -/
theorem output_eq (c : Dev nD) (t : Fin cfg0.N) :
    (outsAt0 m c t.val t.isLt).1
      = k0_pay2 (iblk m c 3 t : Vec F S400x10000 .f32) (projected m c) (iblk m c 2 t : Vec F S1x128 .f32) := by
  by_cases h0 : t.val % 25 = 0
  · rw [outsAt0_A m c t h0]
    dsimp only
    exact (Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (congrArg (fun f => k0_pay2 (iblk m c 3 t : Vec F S400x10000 .f32) f (iblk m c 2 t : Vec F S1x128 .f32))
        (projected_of_blocks m c t))
  · rw [outsAt0_B m c t h0]
    dsimp only
    exact (Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2).trans
      (congrArg (fun f => k0_pay2 (iblk m c 3 t : Vec F S400x10000 .f32) f (iblk m c 2 t : Vec F S1x128 .f32))
        (scratch_eq m c _ _))

end Cert.KernelIdeal.Points

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.Payload.lean ====
/-
  The kernel body's two stored values, read at an index over the extended reals.

  The first point of the grid stores, into the scratch, the product of the whole feature array with the
  (already transposed) weight matrix: entry (p, q) is ∑ d, x (p, d) · w (d, q). Every point stores, into its
  output block, the product of its block of adjacency rows with the scratch, plus the bias row repeated along
  the rows: entry (p, q) is (∑ k, a (p, k) · f (k, q)) + bias (0, q). A change of float format is the identity
  on the extended reals and a shape cast between equal shapes is the identity, so nothing else remains.
-/
import proofs.«169005_g81458349736213_cont_sun_m_226_36_alg».proof.Proof.Gen.KernelIdeal.Skeleton
import proofs.«169005_g81458349736213_cont_sun_m_226_36_alg».proof.Proof.LibRowColDot
import proofs.«169005_g81458349736213_cont_sun_m_226_36_alg».proof.Proof.LibRowBroadcast
import Idealize.ShloMosaic.Lib.Pipeline.Value
import Idealize.ShloMosaic.Lib.ValueIdx
import Idealize.ShloMosaic.PureOps.Ideal.Laws
import proofs.«169005_g81458349736213_cont_sun_m_226_36_alg».proof.Proof.Spec

noncomputable section

namespace Cert.KernelIdeal.Body

open Cert.KernelIdeal Cert.KernelIdeal.Gen Idealize.ShloMosaic Idealize.ShloMosaic.ValueIdx

/-- The projection's left operand keeps the output's row. -/
theorem proj_lhs0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The projection's right operand keeps the output's column. -/
theorem proj_rhs1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The aggregation's left operand keeps the output's row. -/
theorem agg_lhs0 (j : S400x128.Idx) (q : dot_S400x10000_S10000x128_S400x128_1_0_0_1_n_n.contr.Idx) :
    (dot_S400x10000_S10000x128_S400x128_1_0_0_1_n_n.lhsIdx j q 0).val = (j 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- The aggregation's right operand keeps the output's column. -/
theorem agg_rhs1 (j : S400x128.Idx) (q : dot_S400x10000_S10000x128_S400x128_1_0_0_1_n_n.contr.Idx) :
    (dot_S400x10000_S10000x128_S400x128_1_0_0_1_n_n.rhsIdx j q 1).val = (j 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The scratch's stored value at (p, q): row p of the features against column q of the transposed weights. -/
theorem projected_apply (x : Vec Ideal S10000x128 .f32) (w : Vec Ideal S128x128 .f32) (j : S10000x128.Idx) :
    k0_pay1 (F := Ideal) x w j = ∑ d : Fin 128, x (ix2 (j 0) d) * w (ix2 d (j 1)) := by
  unfold k0_pay1
  simp only [shapeCast_self]
  exact Cert.RowColDot.matmul_rowcol dot_S10000x128_S128x128_S10000x128_1_0_0_1_n_n rfl rfl rfl rfl proj_lhs0 proj_rhs1 none _ _ j

/-- The output block's stored value at (p, q): row p of the adjacency block against column q of the scratch, plus
    the bias row's entry q. -/
theorem aggregated_apply (a : Vec Ideal S400x10000 .f32) (f : Vec Ideal S10000x128 .bf16) (bz : Vec Ideal S1x128 .f32)
    (p : Fin 400) (q : Fin 128) :
    k0_pay2 (F := Ideal) a f bz (ix2 p q) = (∑ k : Fin 10000, a (ix2 p k) * f (ix2 k q)) + bz (ix2 (0 : Fin 1) q) := by
  unfold k0_pay2
  simp only [shapeCast_self]
  refine (addf_apply _ _ _).trans ?_
  refine congrArg₂ (· + ·) ?_ ?_
  · exact Cert.RowColDot.matmul_rowcol dot_S400x10000_S10000x128_S400x128_1_0_0_1_n_n rfl rfl rfl rfl agg_lhs0 agg_rhs1 none _ _ (ix2 p q)
  · exact Cert.RowBroadcast.row_broadcast_apply bz _ p q

/-- The output block's stored value, when the scratch holds the projection of feature rows `Fm` by transposed
    weights `Wt`, the adjacency block's row p is row r of a matrix `A`, and the bias block is a row `B`: entry
    (p, q) is entry (r, q) of the layer over `Fm`, `A`, `Wt`, `B`. -/
theorem stored_block_apply (a : Vec Ideal S400x10000 .f32) (bz : Vec Ideal S1x128 .f32)
    (Fm : S10000x128.Idx → EReal) (A : S10000x10000.Idx → EReal) (Wt : S128x128.Idx → EReal) (B : S1x128.Idx → EReal)
    (p : Fin 400) (q : Fin 128) (r : Fin 10000) (ha : ∀ k : Fin 10000, a (ix2 p k) = A (ix2 r k)) (hb : bz = B) :
    k0_pay2 (F := Ideal) a (k0_pay1 (F := Ideal) Fm Wt) bz (ix2 p q) = Cert.GcnLayer.layerRows Fm A Wt B (ix2 r q) := by
  refine (aggregated_apply a (k0_pay1 (F := Ideal) Fm Wt) bz p q).trans ?_
  show _ = (∑ k : Fin 10000, A (ix2 r k) * ∑ d : Fin 128, Fm (ix2 k d) * Wt (ix2 d q)) + B (ix2 (0 : Fin 1) q)
  refine congrArg₂ (· + ·) (Finset.sum_congr rfl fun k _ => ?_) ?_
  · exact congrArg₂ (· * ·) (ha k) (projected_apply Fm Wt (ix2 k q))
  · exact congrFun hb _

end Cert.KernelIdeal.Body

end
-- ==== Proof.Blocks.lean ====
/-
  From blocks to the array: the kernel's output array after the run.

  Point t writes back rows 400·t … 400·t + 399 of the output array, and what it writes is those rows of ONE
  whole-array function, the layer over the two-dimensional arrays as the region finds them: entry (p, q) of the
  block is the aggregation of adjacency row 400·t + p against the projected features, plus the bias entry q. The 25
  blocks tile the 10000 rows (row r lies in block r / 400), so the array ends holding that function.
-/
import proofs.«169005_g81458349736213_cont_sun_m_226_36_alg».proof.Proof.Points
import proofs.«169005_g81458349736213_cont_sun_m_226_36_alg».proof.Proof.Payload
import proofs.«169005_g81458349736213_cont_sun_m_226_36_alg».proof.Proof.Spec

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The layer over the arrays the region finds: the flattened features and adjacency, the transposed weights, the
    bias row. -/
def result (c : Dev nD) : S10000x128.Idx → EReal :=
  Cert.GcnLayer.layerRows (V m c main_call0_v0) (V m c main_call0_v1) (V m c main_call0_v2) (V m c main_call0_v3)

/-- Entry (p, q) of what point t stores is entry (400·t + p, q) of the layer. -/
theorem block_value (c : Dev nD) (t : Fin cfg0.N) (p : Fin 400) (q : Fin 128) (r : Fin 10000)
    (hr : r.val = t.val * 400 + p.val) :
    k0_pay2 (F := Ideal) (iblk m c 3 t : Vec Ideal S400x10000 .f32) (Points.projected m c)
        (iblk m c 2 t : Vec Ideal S1x128 .f32) (ix2 p q)
      = result m c (ix2 r q) :=
  Body.stored_block_apply (iblk m c 3 t : Vec Ideal S400x10000 .f32) (iblk m c 2 t : Vec Ideal S1x128 .f32)
    (V m c main_call0_v0) (V m c main_call0_v1) (V m c main_call0_v2) (V m c main_call0_v3) p q r
    (fun k => Points.adjacency_block_apply m c t p k r hr) (Points.bias_block m c t)

/-- What point t writes back is block t of the layer. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, Points.output_eq]
  obtain ⟨-, -, -, -, -, -, -, -, e0, e1⟩ := Points.block_indices t
  have hN : cfg0.N = 25 := N_0
  have ht : t.val < 25 := lt_of_lt_of_eq t.isLt hN
  refine funext fun (y : S400x128.Idx) => ?_
  have hy0 : (y 0).val < 400 := (y 0).isLt
  show k0_pay2 (F := Ideal) (iblk m c 3 t : Vec Ideal S400x10000 .f32) (Points.projected m c)
      (iblk m c 2 t : Vec Ideal S1x128 .f32) y = result m c (((cfg0.win 4).blk t).view.emb y)
  have he : ((cfg0.win 4).blk t).view.emb y = ix2 (⟨t.val * 400 + (y 0).val, by omega⟩ : Fin 10000) (y 1) := by
    funext a
    apply Fin.ext
    match a with
    | ⟨0, _⟩ => show win0_4.index t (0 : Fin 2) * 400 + 1 * (y 0).val = t.val * 400 + (y 0).val; omega
    | ⟨1, _⟩ => show win0_4.index t (1 : Fin 2) * 128 + 1 * (y 1).val = (y 1).val; omega
  rw [he]
  exact (congrArg (k0_pay2 (F := Ideal) (iblk m c 3 t : Vec Ideal S400x10000 .f32) (Points.projected m c)
    (iblk m c 2 t : Vec Ideal S1x128 .f32)) (eq_ix2 y)).trans (block_value m c t (y 0) (y 1) _ rfl)

/-- An index of the output array is in point t's block iff each coordinate is in the block's range on its axis. -/
theorem mem_block (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_call0_v4).slice (win0_4.rect t)).set ↔ _
  rw [View.set_slice_whole, Rect.mem_set_unit]
  exact Iff.rfl

/-- Every row of the output array lies in some point's block: row r in block r / 400. -/
theorem covered (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  have hq : (i 0).val / 400 < cfg0.N := by rw [hN]; omega
  obtain ⟨-, -, -, -, -, -, -, -, e0, e1⟩ := Points.block_indices ⟨(i 0).val / 400, hq⟩
  refine ⟨⟨(i 0).val / 400, hq⟩, flush0_4 _, ?_⟩
  rw [mem_block]
  intro a
  match a with
  | ⟨0, _⟩ =>
    show win0_4.index ⟨(i 0).val / 400, hq⟩ (0 : Fin 2) * 400 ≤ (i 0).val
      ∧ (i 0).val < win0_4.index ⟨(i 0).val / 400, hq⟩ (0 : Fin 2) * 400 + 400
    rw [e0]; dsimp only; omega
  | ⟨1, _⟩ =>
    show win0_4.index ⟨(i 0).val / 400, hq⟩ (1 : Fin 2) * 128 ≤ (i 1).val
      ∧ (i 1).val < win0_4.index ⟨(i 0).val / 400, hq⟩ (1 : Fin 2) * 128 + 128
    rw [e1]; omega

/-- The output array after the run is the layer over the arrays the region finds. -/
theorem final (c : Dev nD) : (dats m 0 c).arrAt 4 cfg0.N = result m c :=
  (dats m 0 c).arrAt_eq_of_cover 4 (result m c) (fun t _ => flushed_eq m c t) covered

end Cert.KernelIdeal.Blocks

end
-- ==== Proof.Host.lean ====
/-
  The host operations around the kernel, read at an index.

  Before the kernel runs, the features and the adjacency lose their leading unit axis, the weight matrix is
  transposed and the bias becomes one row; after it, the output array regains the leading unit axis. Each is a
  re-indexing: entry (k, d) of the flattened features is entry (0, k, d) of the argument, entry (d, o) of the
  transposed weights is entry (o, d) of the argument, entry (0, o) of the bias row is entry o of the bias, and entry
  (b, n, o) of the result is entry (n, o) of the output array. Through these the layer over the two-dimensional
  arrays is the layer over the arguments.
-/
import proofs.«169005_g81458349736213_cont_sun_m_226_36_alg».proof.Proof.Gen.KernelIdeal.Frame
import proofs.«169005_g81458349736213_cont_sun_m_226_36_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Host

open Cert.KernelIdeal Cert.KernelIdeal.Gen Idealize.ShloMosaic Idealize.ShloMosaic.TcCoe Idealize.ShloMosaic.Tactic
open Idealize.ShloMosaic.ValueIdx Idealize.SL.Sem Idealize.ShloMosaic.StableHlo

section Arrays

variable {F : FTy → Type} [FloatOps F]
variable (m : (ℓ : Loc nD τ sig) → Buf (Elt F) ℓ)

/-- The feature array the region finds: the first argument without its leading unit axis. -/
theorem V_features (c : Dev nD) : (V m c main_call0_v0 : S10000x128.Idx → Elt F .f32)
    = shapeCast S10000x128 (m ((c : Thread nD τ).loc main_arg0)) shapeCasts_S1x10000x128_S10000x128 := by
  show StableHlo.after hostOps0 (fun b => m (c, b)) (Proc.devRef .tc main_call0_v0) = _
  after_results
  rfl

/-- The adjacency matrix the region finds: the second argument without its leading unit axis. -/
theorem V_adjacency (c : Dev nD) : (V m c main_call0_v1 : S10000x10000.Idx → Elt F .f32)
    = shapeCast S10000x10000 (m ((c : Thread nD τ).loc main_arg1)) shapeCasts_S1x10000x10000_S10000x10000 := by
  show StableHlo.after hostOps0 (fun b => m (c, b)) (Proc.devRef .tc main_call0_v1) = _
  after_results
  rfl

/-- The weight matrix the region finds: the third argument transposed. -/
theorem V_weights (c : Dev nD) : (V m c main_call0_v2 : S128x128.Idx → Elt F .f32)
    = transpose S128x128 [1, 0] (m ((c : Thread nD τ).loc main_arg2)) transposes_S128x128_S128x128_1_0 := by
  show StableHlo.after hostOps0 (fun b => m (c, b)) (Proc.devRef .tc main_call0_v2) = _
  after_results
  rfl

/-- The bias row the region finds: the fourth argument as one row. -/
theorem V_bias (c : Dev nD) : (V m c main_call0_v3 : S1x128.Idx → Elt F .f32)
    = shapeCast S1x128 (m ((c : Thread nD τ).loc main_arg3)) shapeCasts_S128_S1x128 := by
  show StableHlo.after hostOps0 (fun b => m (c, b)) (Proc.devRef .tc main_call0_v3) = _
  after_results
  rfl

/-- The program's result: the kernel's output array with a leading unit axis added. -/
theorem tail_eq (c : Dev nD) :
    (Pipeline.afterTail₀ cfgs (dats m) 0 (V0 m) [hostOps1] c main_v0 : S1x10000x128.Idx → Elt F .f32)
      = shapeCast S1x10000x128 ((dats m 0 c).arrAt 4 cfg0.N) shapeCasts_S10000x128_S1x10000x128 := by
  unfold Pipeline.afterTail₀
  show StableHlo.after hostOps1 _ (Proc.devRef .tc main_v0) = _
  after_results
  rw [Pipeline.withArrays_arr spec0 launch0.win.arr_inj c (V0 m c) (fun w => (dats m 0 c).arrAt w cfg0.N) 4]
  rfl

end Arrays

section Reads

variable {α : Type}

/-- Entry (k, d) of the flattened features is entry (0, k, d) of the argument. -/
theorem features_apply (x : S1x10000x128.Idx → α) (k : Fin 10000) (d : Fin 128) :
    shapeCast S10000x128 x shapeCasts_S1x10000x128_S10000x128 (ix2 k d) = x (ix3 (0 : Fin 1) k d) :=
  shapeCast_apply x _ (ix2 k d) (ix3 (0 : Fin 1) k d) (by
    rw [Shape.rowMajor_val_three, Shape.rowMajor_val_two]
    show (0 * 10000 + k.val) * 128 + d.val = k.val * 128 + d.val
    omega)

/-- Entry (n, k) of the flattened adjacency is entry (0, n, k) of the argument. -/
theorem adjacency_apply (x : S1x10000x10000.Idx → α) (n k : Fin 10000) :
    shapeCast S10000x10000 x shapeCasts_S1x10000x10000_S10000x10000 (ix2 n k) = x (ix3 (0 : Fin 1) n k) :=
  shapeCast_apply x _ (ix2 n k) (ix3 (0 : Fin 1) n k) (by
    rw [Shape.rowMajor_val_three, Shape.rowMajor_val_two]
    show (0 * 10000 + n.val) * 10000 + k.val = n.val * 10000 + k.val
    omega)

/-- Entry (d, o) of the transposed weights is entry (o, d) of the argument. -/
theorem weights_apply (x : S128x128.Idx → α) (d o : Fin 128) :
    transpose S128x128 [1, 0] x transposes_S128x128_S128x128_1_0 (ix2 d o) = x (ix2 o d) :=
  transpose_apply _ x _ (ix2 d o) (ix2 o d) (fun b => match b with | ⟨0, _⟩ => rfl | ⟨1, _⟩ => rfl)

/-- Entry (0, o) of the bias row is entry o of the bias. -/
theorem bias_apply (x : S128.Idx → α) (o : Fin 128) :
    shapeCast S1x128 x shapeCasts_S128_S1x128 (ix2 (0 : Fin 1) o) = x (ix1 o) :=
  shapeCast_apply x _ (ix2 (0 : Fin 1) o) (ix1 o) (by
    rw [Shape.rowMajor_val_one, Shape.rowMajor_val_two]
    show o.val = 0 * 128 + o.val
    omega)

/-- Entry (b, n, o) of the result is entry (n, o) of the kernel's output array. -/
theorem result_apply (y : S10000x128.Idx → α) (b : Fin 1) (n : Fin 10000) (o : Fin 128) :
    shapeCast S1x10000x128 y shapeCasts_S10000x128_S1x10000x128 (ix3 b n o) = y (ix2 n o) :=
  shapeCast_apply y _ (ix3 b n o) (ix2 n o) (by
    have hb : b.val < 1 := b.isLt
    rw [Shape.rowMajor_val_three, Shape.rowMajor_val_two]
    show n.val * 128 + o.val = (b.val * 10000 + n.val) * 128 + o.val
    omega)

end Reads

/-- The layer over the flattened, transposed and row-shaped arrays, with the unit axis restored, is the layer over the
    four arguments. -/
theorem layer_eq (x0 : S1x10000x128.Idx → EReal) (x1 : S1x10000x10000.Idx → EReal) (x2 : S128x128.Idx → EReal)
    (x3 : S128.Idx → EReal) :
    shapeCast S1x10000x128
        (Cert.GcnLayer.layerRows (shapeCast S10000x128 x0 shapeCasts_S1x10000x128_S10000x128)
          (shapeCast S10000x10000 x1 shapeCasts_S1x10000x10000_S10000x10000)
          (transpose S128x128 [1, 0] x2 transposes_S128x128_S128x128_1_0)
          (shapeCast S1x128 x3 shapeCasts_S128_S1x128))
        shapeCasts_S10000x128_S1x10000x128
      = Cert.GcnLayer.layer x0 x1 x2 x3 := by
  funext i
  obtain ⟨b, n, o, rfl⟩ : ∃ (b : Fin 1) (n : Fin 10000) (o : Fin 128), i = ix3 b n o := ⟨i 0, i 1, i 2, eq_ix3 i⟩
  obtain rfl : b = 0 := Subsingleton.elim _ _
  rw [result_apply]
  show (∑ k : Fin 10000, shapeCast S10000x10000 x1 shapeCasts_S1x10000x10000_S10000x10000 (ix2 n k)
        * ∑ d : Fin 128, shapeCast S10000x128 x0 shapeCasts_S1x10000x128_S10000x128 (ix2 k d)
          * transpose S128x128 [1, 0] x2 transposes_S128x128_S128x128_1_0 (ix2 d o))
      + shapeCast S1x128 x3 shapeCasts_S128_S1x128 (ix2 (0 : Fin 1) o)
    = (∑ k : Fin 10000, x1 (ix3 (0 : Fin 1) n k) * ∑ d : Fin 128, x0 (ix3 (0 : Fin 1) k d) * x2 (ix2 o d)) + x3 (ix1 o)
  simp only [features_apply, adjacency_apply, bias_apply]
  exact congrArg₂ (· + ·) (Finset.sum_congr rfl fun k _ => congrArg₂ (· * ·) rfl
    (Finset.sum_congr rfl fun d _ => congrArg₂ (· * ·) rfl (weights_apply x2 d o))) rfl

end Cert.KernelIdeal.Host

end
-- ==== Proof.KernelRun.lean ====
/-
  The kernel's run, read at the extended reals: every weakly fair execution terminates with the result array at the
  graph-convolution layer of the four arguments, and the arguments unchanged.

  The output array after the run is the layer over the two-dimensional arrays the region finds; those arrays are
  the arguments flattened, transposed and row-shaped by the host operations before the kernel, and the host
  operation after it restores the leading unit axis.
-/
import proofs.«169005_g81458349736213_cont_sun_m_226_36_alg».proof.Proof.Blocks
import proofs.«169005_g81458349736213_cont_sun_m_226_36_alg».proof.Proof.Host

noncomputable section

namespace Cert.KernelIdeal.Run

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the program's result buffer holds after the host operation that follows the kernel: the layer of the
    arguments. -/
theorem result_eq (c : Dev nD) :
    (Pipeline.afterTail₀ cfgs (dats m) 0 (V0 m) [hostOps1] c main_v0 : S1x10000x128.Idx → EReal)
      = Cert.GcnLayer.layer (m ((c.tc : Thread nD τ).loc main_arg0)) (m ((c.tc : Thread nD τ).loc main_arg1)) (m ((c.tc : Thread nD τ).loc main_arg2)) (m ((c.tc : Thread nD τ).loc main_arg3)) := by
  rw [Host.tail_eq, Blocks.final]
  unfold Blocks.result
  rw [Host.V_features, Host.V_adjacency, Host.V_weights, Host.V_bias]
  exact Host.layer_eq _ _ _ _

/-- The run: the result at the layer of the arguments, the arguments as launched. -/
theorem run : θ_run defs (onTc (τ := τ) (main (F := Ideal))) ⟨m, fun _ => 0, ρ⟩ fun r => ∀ c : Dev nD,
      r.2.mem ((c.tc : Thread nD τ).loc main_v0)
        = Cert.GcnLayer.layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.lean ====
/-
  A graph-convolution layer with a dense adjacency: out = adj · (seq · Wᵀ) + bias.

  The kernel walks the 10000 rows of the adjacency matrix in 25 blocks of 400. At the first block it projects every
  node's feature row by the transposed weight matrix into a scratch that it keeps for the rest of the grid; at every
  block it multiplies the block's adjacency rows with the scratch and adds the bias row. The reference contracts the
  features with the weight matrix, contracts the adjacency with the result, and adds the bias. Over the extended
  reals — where a change of float format is the identity and both kinds of matrix product are plain sums — the two
  compute, entry by entry, the SAME nested sum

      out[b, n, o] = (∑ k, adj[b, n, k] · (∑ d, seq[b, k, d] · W[o, d])) + bias[o]

  in the same order, so the equality needs no law of the extended reals and never uses that the inputs are finite.

  The modules: `Spec` states the layer; `RefRead` reads the reference at an index; `Payload` reads the kernel
  body's two stored values at an index; `Pieces` says what one run of the body leaves in the scratch and in the
  output block; `Points` carries the scratch through the grid by induction on the point; `Blocks` assembles the
  output array from the 25 blocks; `Host` reads the reshapes and the transpose around the kernel; `KernelRun` states
  the kernel's run. The three frames are the programs' runs with the results dropped, and the idealization rewrote
  no operation.
-/
import proofs.«169005_g81458349736213_cont_sun_m_226_36_alg».proof.Defs
import proofs.«169005_g81458349736213_cont_sun_m_226_36_alg».proof.Proof.Gen.Kernel
import proofs.«169005_g81458349736213_cont_sun_m_226_36_alg».proof.Proof.Gen.Kernel.Skeleton
import proofs.«169005_g81458349736213_cont_sun_m_226_36_alg».proof.Proof.Gen.Kernel.Launch
import proofs.«169005_g81458349736213_cont_sun_m_226_36_alg».proof.Proof.Gen.Kernel.Points
import proofs.«169005_g81458349736213_cont_sun_m_226_36_alg».proof.Proof.Gen.Kernel.Frame
import proofs.«169005_g81458349736213_cont_sun_m_226_36_alg».proof.Proof.Gen.KernelIdeal
import proofs.«169005_g81458349736213_cont_sun_m_226_36_alg».proof.Proof.Gen.KernelIdeal.Skeleton
import proofs.«169005_g81458349736213_cont_sun_m_226_36_alg».proof.Proof.Gen.KernelIdeal.Launch
import proofs.«169005_g81458349736213_cont_sun_m_226_36_alg».proof.Proof.Gen.KernelIdeal.Points
import proofs.«169005_g81458349736213_cont_sun_m_226_36_alg».proof.Proof.Gen.KernelIdeal.Frame
import proofs.«169005_g81458349736213_cont_sun_m_226_36_alg».proof.Proof.Gen.ReferenceIdeal
import proofs.«169005_g81458349736213_cont_sun_m_226_36_alg».proof.Proof.Gen.ReferenceIdeal.Run
import proofs.«169005_g81458349736213_cont_sun_m_226_36_alg».proof.Proof.Gen.ReferenceIdeal.Read
import proofs.«169005_g81458349736213_cont_sun_m_226_36_alg».proof.Proof.Gen.Pre_finite_inputs
import proofs.«169005_g81458349736213_cont_sun_m_226_36_alg».proof.Proof.RefRead
import proofs.«169005_g81458349736213_cont_sun_m_226_36_alg».proof.Proof.KernelRun
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, both programs end with the result at the layer of those
    arguments. -/
theorem algebraic : Cert.algebraic_KernelIdeal_ReferenceIdeal := by
  intro m ρ m' ρ' _ hagree
  refine ⟨fun c => Cert.GcnLayer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
